-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x64x64 : Shape := ⟨4, ![64, 512, 64, 64]⟩
abbrev S128x512 : Shape := ⟨2, ![128, 512]⟩
abbrev S128x128 : Shape := ⟨2, ![128, 128]⟩
abbrev S_ : Shape := ⟨0, ![]⟩
abbrev S512x128 : Shape := ⟨2, ![512, 128]⟩

class Facts : Prop where
  bcast_S_S64x512x64x64 : S_.BroadcastsInDim S64x512x64x64 (![] : Fin 0 → Fin S64x512x64x64.rank)
  reducesTo_S64x512x64x64_S_d0_1_2_3 : S64x512x64x64.ReducesTo [0, 1, 2, 3] S_
  h_S_ : 0 < S_.numel
  bcast_S_S128x512 : S_.BroadcastsInDim S128x512 (![] : Fin 0 → Fin S128x512.rank)
  reducesTo_S128x512_S_d0_1 : S128x512.ReducesTo [0, 1] S_
  bcast_S_S128x128 : S_.BroadcastsInDim S128x128 (![] : Fin 0 → Fin S128x128.rank)
  reducesTo_S128x128_S_d0_1 : S128x128.ReducesTo [0, 1] S_
  reducesTo_S_S_d : S_.ReducesTo [] S_
  bcast_S_S512x128 : S_.BroadcastsInDim S512x128 (![] : Fin 0 → Fin S512x128.rank)
  reducesTo_S512x128_S_d0_1 : S512x128.ReducesTo [0, 1] S_

variable [Facts]

def fn_part1 {F : FTy → Type} [FloatOps F] (main_arg4 : FVec F S_ .f32) (main_arg5 : FVec F S512x128 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S_ .f32 := Host.absf main_arg4
  let main_cst_6 : FVec F S_ .f32 := constant S_ .f32 0x7F800000#32
  let main_v19 : IVec S_ 1 := cmpf .olt main_v18 main_cst_6
  let main_c_7 : IVec S_ 1 := constantI S_ 1 1#1
  let main_v20 : IVec S_ 1 := (fun x v => Host.reduce IntOp.andi x v reducesTo_S_S_d h_S_) main_v19 main_c_7
  let main_v21 : IVec S_ 1 := andi main_v17 main_v20
  let main_v22 : FVec F S512x128 .f32 := Host.absf main_arg5
  let main_cst_8 : FVec F S_ .f32 := constant S_ .f32 0x7F800000#32
  let main_v23 : FVec F S512x128 .f32 := broadcastInDim S512x128 ![] bcast_S_S512x128 main_cst_8
  let main_v24 : IVec S512x128 1 := cmpf .olt main_v22 main_v23
  let main_c_9 : IVec S_ 1 := constantI S_ 1 1#1
  let main_v25 : IVec S_ 1 := (fun x v => Host.reduce IntOp.andi x v reducesTo_S512x128_S_d0_1 h_S_) main_v24 main_c_9
  let main_v26 : IVec S_ 1 := andi main_v21 main_v25
  main_v26

def fn {F : FTy → Type} [FloatOps F] (main_arg0 : FVec F S64x512x64x64 .f32) (main_arg1 : FVec F S128x512 .f32) (main_arg2 : FVec F S128x128 .f32) (main_arg3 : FVec F S_ .f32) (main_arg4 : FVec F S_ .f32) (main_arg5 : FVec F S512x128 .f32) : IVec S_ 1 :=
  let main_v0 : FVec F S64x512x64x64 .f32 := Host.absf main_arg0
  let main_cst : FVec F S_ .f32 := constant S_ .f32 0x7F800000#32
  let main_v1 : FVec F S64x512x64x64 .f32 := broadcastInDim S64x512x64x64 ![] bcast_S_S64x512x64x64 main_cst
  let main_v2 : IVec S64x512x64x64 1 := cmpf .olt main_v0 main_v1
  let main_c : IVec S_ 1 := constantI S_ 1 1#1
  let main_v3 : IVec S_ 1 := (fun x v => Host.reduce IntOp.andi x v reducesTo_S64x512x64x64_S_d0_1_2_3 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg4 main_arg5 main_v13 main_v15 main_c_5
-- ==== Kernel.lean ====
abbrev S64x512x64x64 : Shape := ⟨4, ![64, 512, 64, 64]⟩
abbrev S128x512 : Shape := ⟨2, ![128, 512]⟩
abbrev S128x128 : Shape := ⟨2, ![128, 128]⟩
abbrev S_ : Shape := ⟨0, ![]⟩
abbrev S512x128 : Shape := ⟨2, ![512, 128]⟩
abbrev S64x512 : Shape := ⟨2, ![64, 512]⟩
abbrev S8x128x64x64 : Shape := ⟨4, ![8, 128, 64, 64]⟩
abbrev S8x128 : Shape := ⟨2, ![8, 128]⟩
abbrev S1x1 : Shape := ⟨2, ![1, 1]⟩
abbrev S64x128 : Shape := ⟨2, ![64, 128]⟩
abbrev S64 : Shape := ⟨1, ![64]⟩
abbrev S64x1 : Shape := ⟨2, ![64, 1]⟩
abbrev S64x512x1x1 : Shape := ⟨4, ![64, 512, 1, 1]⟩

abbrev nBuf : Space → Nat
  | .hbm => 11
  | .vmem => 11
  | .smem => 0
  | _ => 0

abbrev bufTy : (tb : Table) → Fin (tcTables nBuf tb) → BufTy
  | .hbm, ⟨0, _⟩ => ⟨S64x512x64x64, .f32⟩
  | .hbm, ⟨1, _⟩ => ⟨S128x512, .f32⟩
  | .hbm, ⟨2, _⟩ => ⟨S128x128, .f32⟩
  | .hbm, ⟨3, _⟩ => ⟨S_, .f32⟩
  | .hbm, ⟨4, _⟩ => ⟨S_, .f32⟩
  | .hbm, ⟨5, _⟩ => ⟨S512x128, .f32⟩
  | .hbm, ⟨6, _⟩ => ⟨S64x512, .f32⟩
  | .hbm, ⟨7, _⟩ => ⟨S1x1, .f32⟩
  | .hbm, ⟨8, _⟩ => ⟨S1x1, .f32⟩
  | .hbm, ⟨9, _⟩ => ⟨S64x512, .f32⟩
  | .hbm, ⟨10, _⟩ => ⟨S64x512x1x1, .f32⟩
  | .local _ .vmem, ⟨0, _⟩ => ⟨S8x128x64x64, .f32⟩
  | .local _ .vmem, ⟨1, _⟩ => ⟨S8x128x64x64, .f32⟩
  | .local _ .vmem, ⟨2, _⟩ => ⟨S8x128, .f32⟩
  | .local _ .vmem, ⟨3, _⟩ => ⟨S8x128, .f32⟩
  | .local _ .vmem, ⟨4, _⟩ => ⟨S64x512, .f32⟩
  | .local _ .vmem, ⟨5, _⟩ => ⟨S128x512, .f32⟩
  | .local _ .vmem, ⟨6, _⟩ => ⟨S128x128, .f32⟩
  | .local _ .vmem, ⟨7, _⟩ => ⟨S1x1, .f32⟩
  | .local _ .vmem, ⟨8, _⟩ => ⟨S1x1, .f32⟩
  | .local _ .vmem, ⟨9, _⟩ => ⟨S512x128, .f32⟩
  | .local _ .vmem, ⟨10, _⟩ => ⟨S64x512, .f32⟩
  | _, _ => ⟨S64x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  inb_S8x128x64x64_S8x128x64x64_0_0_0_0 : ∀ a, (![0, 0, 0, 0] : Fin 4 → Nat) a + S8x128x64x64.size a ≤ S8x128x64x64.size a
  h_S8x128x64x64 : 0 < S8x128x64x64.numel
  reduces_S8x128x64x64_S8x128 : S8x128x64x64.Reduces [2, 3] S8x128
  inb_S8x128_S8x128_0_0 : ∀ a, (![0, 0] : Fin 2 → Nat) a + S8x128.size a ≤ S8x128.size a
  h_S8x128 : 0 < S8x128.numel
  shapeCasts_S_S1x1 : S_.ShapeCasts S1x1
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S128x512_S128x512_0_0 : ∀ a, (![0, 0] : Fin 2 → Nat) a + S128x512.size a ≤ S128x512.size a
  h_S128x512 : 0 < S128x512.numel
  inb_S128x128_S128x128_0_0 : ∀ a, (![0, 0] : Fin 2 → Nat) a + S128x128.size a ≤ S128x128.size a
  h_S128x128 : 0 < S128x128.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x128_S512x128_0_0 : ∀ a, (![0, 0] : Fin 2 → Nat) a + S512x128.size a ≤ S512x128.size a
  h_S512x128 : 0 < S512x128.numel
  transposes_S128x512_p1_0_S512x128 : S128x512.Transposes [1, 0] S512x128
  reduces_S64x128_S64 : S64x128.Reduces [1] S64
  shapeCasts_S64_S64x1 : S64.ShapeCasts S64x1
  broadcasts_S64x1_S64x128 : S64x1.Broadcasts S64x128
  transposes_S512x128_p1_0_S128x512 : S512x128.Transposes [1, 0] S128x512
  shapeCasts_S64x512_S64x512x1x1 : S64x512.ShapeCasts S64x512x1x1
  dot_S64x512_S512x128_S64x128_1_0_0_1_n_n_wf : DotDims.WF S64x512 S512x128 S64x128 [1] [0] [0] [1] [] []
  dot_S64x128_S128x128_S64x128_1_0_0_1_n_n_wf : DotDims.WF S64x128 S128x128 S64x128 [1] [0] [0] [1] [] []
  dot_S64x128_S128x512_S64x512_1_0_0_1_n_n_wf : DotDims.WF S64x128 S128x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x64x64.size a ≤ S64x512x64x64.size a
  hwx0_0 : ∀ i : grid0.Coords, EltTy.bits .f32 = 32 ∨ (Rect.block (s := S64x512x64x64) S8x128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x512.size a
  hwx0_1 : ∀ i : grid0.Coords, EltTy.bits .f32 = 32 ∨ (Rect.block (s := S64x512) S8x128.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x512.size a ≤ S64x512.size a
  hwx1_0 : ∀ i : grid1.Coords, EltTy.bits .f32 = 32 ∨ (Rect.block (s := S64x512) S64x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S512x128.size a
  hwx1_5 : ∀ i : grid1.Coords, EltTy.bits .f32 = 32 ∨ (Rect.block (s := S512x128) S512x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x512.size a ≤ S64x512.size a
  hwx1_6 : ∀ i : grid1.Coords, EltTy.bits .f32 = 32 ∨ (Rect.block (s := S64x512) S64x512.size (cc1_transform_6 i) (hinb1_6 i)).WholeWords (EltTy.packing .f32)

variable [Facts₀]

def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x512_S64x512_1_0_0_1_n_n : DotDims S64x128 S128x512 S64x512 where
  lhsContracting := [1]
  rhsContracting := [0]
  lhsNonContracting := [0]
  rhsNonContracting := [1]
  lhsBatch := []
  rhsBatch := []
  wf := dot_S64x128_S128x512_S64x512_1_0_0_1_n_n_wf

abbrev win0_0 : Pipeline.Window sig grid0 :=
  Pipeline.Window.ofSpec (Memref.whole main_arg0) S8x128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S64x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S512x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S64x512.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S64x512x64x64 : Shape := ⟨4, ![64, 512, 64, 64]⟩
abbrev S128x512 : Shape := ⟨2, ![128, 512]⟩
abbrev S128x128 : Shape := ⟨2, ![128, 128]⟩
abbrev S_ : Shape := ⟨0, ![]⟩
abbrev S512x128 : Shape := ⟨2, ![512, 128]⟩
abbrev S64x512 : Shape := ⟨2, ![64, 512]⟩
abbrev S64x128 : Shape := ⟨2, ![64, 128]⟩
abbrev S64 : Shape := ⟨1, ![64]⟩
abbrev S64x1 : Shape := ⟨2, ![64, 1]⟩
abbrev S64x512x1x1 : Shape := ⟨4, ![64, 512, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S64x512x64x64, .f32⟩
  | .hbm, ⟨1, _⟩ => ⟨S128x512, .f32⟩
  | .hbm, ⟨2, _⟩ => ⟨S128x128, .f32⟩
  | .hbm, ⟨3, _⟩ => ⟨S_, .f32⟩
  | .hbm, ⟨4, _⟩ => ⟨S_, .f32⟩
  | .hbm, ⟨5, _⟩ => ⟨S512x128, .f32⟩
  | .hbm, ⟨6, _⟩ => ⟨S_, .f32⟩
  | .hbm, ⟨7, _⟩ => ⟨S64x512, .f32⟩
  | .hbm, ⟨8, _⟩ => ⟨S_, .f32⟩
  | .hbm, ⟨9, _⟩ => ⟨S64x512, .f32⟩
  | .hbm, ⟨10, _⟩ => ⟨S64x512, .f32⟩
  | .hbm, ⟨11, _⟩ => ⟨S64x128, .f32⟩
  | .hbm, ⟨12, _⟩ => ⟨S64x128, .f32⟩
  | .hbm, ⟨13, _⟩ => ⟨S64x128, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64x1, .f32⟩
  | .hbm, ⟨20, _⟩ => ⟨S64x128, .f32⟩
  | .hbm, ⟨21, _⟩ => ⟨S64x128, .f32⟩
  | .hbm, ⟨22, _⟩ => ⟨S64x128, .f32⟩
  | .hbm, ⟨23, _⟩ => ⟨S_, .f32⟩
  | .hbm, ⟨24, _⟩ => ⟨S64, .f32⟩
  | .hbm, ⟨25, _⟩ => ⟨S64x1, .f32⟩
  | .hbm, ⟨26, _⟩ => ⟨S64x128, .f32⟩
  | .hbm, ⟨27, _⟩ => ⟨S64x128, .f32⟩
  | .hbm, ⟨28, _⟩ => ⟨S64x128, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S64x128, .f32⟩
  | .hbm, ⟨33, _⟩ => ⟨S_, .f32⟩
  | .hbm, ⟨34, _⟩ => ⟨S64x128, .f32⟩
  | .hbm, ⟨35, _⟩ => ⟨S64x128, .f32⟩
  | .hbm, ⟨36, _⟩ => ⟨S64x512, .f32⟩
  | .hbm, ⟨37, _⟩ => ⟨S64x512, .f32⟩
  | .hbm, ⟨38, _⟩ => ⟨S64x512, .f32⟩
  | .hbm, ⟨39, _⟩ => ⟨S_, .f32⟩
  | .hbm, ⟨40, _⟩ => ⟨S64x512, .f32⟩
  | .hbm, ⟨41, _⟩ => ⟨S64x512, .f32⟩
  | .hbm, ⟨42, _⟩ => ⟨S_, .f32⟩
  | .hbm, ⟨43, _⟩ => ⟨S64x512, .f32⟩
  | .hbm, ⟨44, _⟩ => ⟨S64x512, .f32⟩
  | .hbm, ⟨45, _⟩ => ⟨S64x512x1x1, .f32⟩
  | _, _ => ⟨S64x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  reducesTo_S64x512x64x64_S64x512_d2_3 : S64x512x64x64.ReducesTo [2, 3] S64x512
  h_S_ : 0 < S_.numel
  bcast_S_S64x512 : S_.BroadcastsInDim S64x512 (![] : Fin 0 → Fin S64x512.rank)
  bcast_S_S64x128 : S_.BroadcastsInDim S64x128 (![] : Fin 0 → Fin S64x128.rank)
  reducesTo_S64x128_S64_d1 : S64x128.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64x512_S64x512x1x1_0_1 : S64x512.BroadcastsInDim S64x512x1x1 (![0, 1] : Fin 2 → Fin S64x512x1x1.rank)
  dot_S64x512_S128x512_S64x128_1_1_0_0_n_n_wf : DotDims.WF S64x512 S128x512 S64x128 [1] [1] [0] [0] [] []
  dot_S64x128_S128x128_S64x128_1_0_0_1_n_n_wf : DotDims.WF S64x128 S128x128 S64x128 [1] [0] [0] [1] [] []
  dot_S64x128_S512x128_S64x512_1_1_0_0_n_n_wf : DotDims.WF S64x128 S512x128 S64x512 [1] [1] [0] [0] [] []

variable [Facts₀]

def dot_S64x512_S128x512_S64x128_1_1_0_0_n_n : DotDims S64x512 S128x512 S64x128 where
  lhsContracting := [1]
  rhsContracting := [1]
  lhsNonContracting := [0]
  rhsNonContracting := [0]
  lhsBatch := []
  rhsBatch := []
  wf := dot_S64x512_S128x512_S64x128_1_1_0_0_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S512x128_S64x512_1_1_0_0_n_n : DotDims S64x128 S512x128 S64x512 where
  lhsContracting := [1]
  rhsContracting := [1]
  lhsNonContracting := [0]
  rhsNonContracting := [0]
  lhsBatch := []
  rhsBatch := []
  wf := dot_S64x128_S512x128_S64x512_1_1_0_0_n_n_wf

class Facts : Prop extends Facts₀ where

variable [Facts]
-- ==== Proof.KernelRun.lean ====
/-
  The idealized kernel's run with its result read back. The program is two launches with reshapes between and after:
  the pooling launch fills the [64, 512] array of means block by block, the two scalar weights are reshaped to [1, 1],
  the second launch writes the [64, 512] result, and a last reshape appends two unit axes. Every weakly fair execution
  terminates, without a fault, with the result buffer holding the last boundary's contents of it and the six arguments
  as they were launched.
-/
import proofs.«146215_j73581379715677_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the segments of the program launched from the memory `m`; the last thread state holds every unscoped buffer at
    the contents after the last reshape, and the final memory is read against it — the result buffer at those contents, each
    argument walked back through the segments to its launch contents. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Hand

end
-- ==== Proof.PoolSum.lean ====
/-
  The pooling sum, block against array. The first kernel sums an [8, 128, 64, 64] block over its two spatial axes; the
  reference sums the whole [64, 512, 64, 64] array over the same two axes. When the block is rows 8·bi … 8·bi + 7 and
  channels 128·bj … 128·bj + 127 of the array, the spatial positions under block entry (r, c) are exactly the
  spatial positions under array entry (8·bi + r, 128·bj + c): the two sums run over the same elements. Dividing both
  by 4096 gives the block's mean as the reference's mean at that entry.
-/
import proofs.«146215_j73581379715677_1_alg».proof.Proof.Gen.KernelIdeal.Skeleton
import proofs.«146215_j73581379715677_1_alg».proof.Proof.Gen.ReferenceIdeal.Read
import Idealize.ShloMosaic.Lib.ValueIdx
import Idealize.ShloMosaic.PureOps.Ideal.Laws

noncomputable section

namespace Cert.Bridge

open Idealize.ShloMosaic Idealize.ShloMosaic.ValueIdx
open Cert.KernelIdeal

/-- The array position of a block position: the block's offset added on the two leading axes. -/
def liftPos (bi bj : Nat) (hbi : bi < 8) (hbj : bj < 4) (a : S8x128x64x64.Idx) : S64x512x64x64.Idx := fun c => match c with
  | ⟨0, _⟩ => ⟨bi * 8 + (a 0).val, by show bi * 8 + (a 0).val < 64; have h : (a 0).val < 8 := (a 0).isLt; omega⟩
  | ⟨1, _⟩ => ⟨bj * 128 + (a 1).val, by show bj * 128 + (a 1).val < 512; have h : (a 1).val < 128 := (a 1).isLt; omega⟩
  | ⟨2, _⟩ => ⟨(a 2).val, (a 2).isLt⟩
  | ⟨3, _⟩ => ⟨(a 3).val, (a 3).isLt⟩

/-- The block position of an array position (meaningful inside the block): the leading coordinates reduced modulo the block's extents. -/
def blockPos (i : S64x512x64x64.Idx) : S8x128x64x64.Idx := fun c => match c with
  | ⟨0, _⟩ => ⟨(i 0).val % 8, Nat.mod_lt _ (by decide)⟩
  | ⟨1, _⟩ => ⟨(i 1).val % 128, Nat.mod_lt _ (by decide)⟩
  | ⟨2, _⟩ => ⟨(i 2).val, (i 2).isLt⟩
  | ⟨3, _⟩ => ⟨(i 3).val, (i 3).isLt⟩

/-- Dropping the two spatial axes keeps the two leading coordinates: in the block, -/
theorem dropK_val (h : S8x128x64x64.Reduces [2, 3] S8x128) (a : S8x128x64x64.Idx) :
    (h.drop a 0).val = (a 0).val ∧ (h.drop a 1).val = (a 1).val :=
  ⟨h.drop_apply_val_of_eq a 0 0, h.drop_apply_val_of_eq a 1 1⟩
/-- and in the array. -/
theorem dropR_val (h : S64x512x64x64.ReducesTo [2, 3] S64x512) (i : S64x512x64x64.Idx) :
    (h.drop i 0).val = (i 0).val ∧ (h.drop i 1).val = (i 1).val :=
  ⟨h.drop_apply_val_of_eq i 0 0, h.drop_apply_val_of_eq i 1 1⟩

theorem eq_of_vals2 {n0 n1 : Nat} (u v : (⟨2, ![n0, n1]⟩ : Shape).Idx) (h0 : (u 0).val = (v 0).val) (h1 : (u 1).val = (v 1).val) : u = v :=
  funext fun b => Fin.ext (by match b with | ⟨0, _⟩ => exact h0 | ⟨1, _⟩ => exact h1)

/-- The block's spatial sum under (r, c) is the array's spatial sum under (8·bi + r, 128·bj + c). -/
theorem block_sum_eq (hK : S8x128x64x64.Reduces [2, 3] S8x128) (hR : S64x512x64x64.ReducesTo [2, 3] S64x512)
    (x : S64x512x64x64.Idx → EReal) (blk : S8x128x64x64.Idx → EReal) (bi bj : Nat) (hbi : bi < 8) (hbj : bj < 4)
    (hblk : ∀ a : S8x128x64x64.Idx, blk a = x (liftPos bi bj hbi hbj a))
    (y : S8x128.Idx) (z : S64x512.Idx) (hz0 : (z 0).val = bi * 8 + (y 0).val) (hz1 : (z 1).val = bj * 128 + (y 1).val) :
    ∑ a ∈ Finset.univ.filter (fun a => hK.drop a = y), blk a = ∑ i ∈ Finset.univ.filter (fun i => hR.drop i = z), x i := by
  have hy0 : (y 0).val < 8 := (y 0).isLt
  have hy1 : (y 1).val < 128 := (y 1).isLt
  refine Finset.sum_nbij' (liftPos bi bj hbi hbj) blockPos ?_ ?_ ?_ ?_ ?_
  · intro a ha
    have e := (Finset.mem_filter.mp ha).2
    obtain ⟨k0, k1⟩ := dropK_val hK a
    obtain ⟨r0, r1⟩ := dropR_val hR (liftPos bi bj hbi hbj a)
    refine Finset.mem_filter.mpr ⟨Finset.mem_univ _, eq_of_vals2 _ _ ?_ ?_⟩
    · rw [r0, hz0, ← e, k0]; rfl
    · rw [r1, hz1, ← e, k1]; rfl
  · intro i hi
    have e := (Finset.mem_filter.mp hi).2
    obtain ⟨r0, r1⟩ := dropR_val hR i
    obtain ⟨k0, k1⟩ := dropK_val hK (blockPos i)
    have i0 : (i 0).val = bi * 8 + (y 0).val := by rw [← r0, e, hz0]
    have i1 : (i 1).val = bj * 128 + (y 1).val := by rw [← r1, e, hz1]
    refine Finset.mem_filter.mpr ⟨Finset.mem_univ _, eq_of_vals2 _ _ ?_ ?_⟩
    · rw [k0]; show (i 0).val % 8 = (y 0).val; omega
    · rw [k1]; show (i 1).val % 128 = (y 1).val; omega
  · intro a _
    have h0 : (a 0).val < 8 := (a 0).isLt
    have h1 : (a 1).val < 128 := (a 1).isLt
    funext c; apply Fin.ext
    match c with
    | ⟨0, _⟩ => show (bi * 8 + (a 0).val) % 8 = (a 0).val; omega
    | ⟨1, _⟩ => show (bj * 128 + (a 1).val) % 128 = (a 1).val; omega
    | ⟨2, _⟩ => rfl
    | ⟨3, _⟩ => rfl
  · intro i hi
    have e := (Finset.mem_filter.mp hi).2
    obtain ⟨r0, r1⟩ := dropR_val hR i
    have i0 : (i 0).val = bi * 8 + (y 0).val := by rw [← r0, e, hz0]
    have i1 : (i 1).val = bj * 128 + (y 1).val := by rw [← r1, e, hz1]
    funext c; apply Fin.ext
    match c with
    | ⟨0, _⟩ => show bi * 8 + (i 0).val % 8 = (i 0).val; omega
    | ⟨1, _⟩ => show bj * 128 + (i 1).val % 128 = (i 1).val; omega
    | ⟨2, _⟩ => rfl
    | ⟨3, _⟩ => rfl
  · intro a _
    exact hblk a

/-- The first kernel's payload on such a block, at (r, c), is the reference's mean at (8·bi + r, 128·bj + c): the same
    spatial sum (the reference's from the initial value 0), divided by the same 4096. -/
theorem pool_payload_at (x : FVec Ideal S64x512x64x64 .f32) (blk : Vec Ideal S8x128x64x64 .f32) (bi bj : Nat) (hbi : bi < 8) (hbj : bj < 4)
    (hblk : ∀ a : S8x128x64x64.Idx, blk a = x (liftPos bi bj hbi hbj a))
    (y : S8x128.Idx) (z : S64x512.Idx) (hz0 : (z 0).val = bi * 8 + (y 0).val) (hz1 : (z 1).val = bj * 128 + (y 1).val) :
    Cert.KernelIdeal.Gen.k0_pay1 (F := Ideal) blk y = Cert.ReferenceIdeal.Read.val_main_v2 (F := Ideal) x z := by
  rw [Cert.ReferenceIdeal.Read.val_main_v2_apply, Cert.ReferenceIdeal.Read.val_main_v1_apply, Cert.ReferenceIdeal.Read.val_main_cst_0_apply]
  show Ideal.div (Ideal.reduceAdd Facts₀.reduces_S8x128x64x64_S8x128 blk y) (Ideal.ofBits .f32 0x45800000#32)
    = Ideal.div (Ideal.hostReduceAdd Cert.ReferenceIdeal.Facts₀.reducesTo_S64x512x64x64_S64x512_d2_3 x (Ideal.ofBits .f32 0x00000000#32) z) (Ideal.ofBits .f32 0x45800000#32)
  refine congrArg (fun s => Ideal.div s (Ideal.ofBits .f32 0x45800000#32)) ?_
  unfold Ideal.reduceAdd Ideal.hostReduceAdd
  rw [Ideal.ofBits_zero_f32, zero_add]
  exact block_sum_eq _ _ x blk bi bj hbi hbj hblk y z hz0 hz1

end Cert.Bridge

end
-- ==== Proof.PoolValue.lean ====
/-
  The first launch: the array of pooled means. The grid is 8 × 4; point (i, j) reads the [8, 128, 64, 64] block of the
  argument at batch rows 8i … 8i + 7 and channels 128j … 128j + 127 (all spatial positions) and writes back the [8, 128]
  block of the output at the same rows and channels. What it writes is its block of ONE function of the argument array —
  the reference's array of means — and the 32 output blocks tile the [64, 512] array, so the array ends holding that
  function.
-/
import proofs.«146215_j73581379715677_1_alg».proof.Proof.Gen.KernelIdeal.Frame
import proofs.«146215_j73581379715677_1_alg».proof.Proof.PoolSum
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- The two windows' block indices over the grid: the input block sits at the output block's rows and channels and at
    spatial block (0, 0); there are 8 row blocks and 4 channel blocks. -/
theorem pool_index_facts : ∀ t : Fin cfg0.N,
    win0_0.index t (0 : Fin 4) = win0_1.index t (0 : Fin 2) ∧ win0_0.index t (1 : Fin 4) = win0_1.index t (1 : Fin 2)
    ∧ win0_0.index t (2 : Fin 4) = 0 ∧ win0_0.index t (3 : Fin 4) = 0
    ∧ win0_1.index t (0 : Fin 2) < 8 ∧ win0_1.index t (1 : Fin 2) < 4 :=
  (by decide +kernel : ∀ t : Fin grid0.N, _)

/-- Every output block is some point's. -/
theorem pool_index_onto : ∀ (q0 : Fin 8) (q1 : Fin 4), ∃ t : Fin cfg0.N, win0_1.index t = ![q0.val, q1.val] :=
  (by decide +kernel : ∀ (q0 : Fin 8) (q1 : Fin 4), ∃ t : Fin grid0.N, win0_1.index t = ![q0.val, q1.val])

/-- What point `t` writes back is block `t` of the reference's array of means of the argument as the launch finds it. -/
theorem pool_flushed_eq (c : Dev nD) (t : Fin cfg0.N) :
    (dat0 V c).flushed 1 t
      = ((cfg0.win 1).blk t).view.read (Elt Ideal) (Cert.ReferenceIdeal.Read.val_main_v2 (F := Ideal) (V c main_arg0)) := by
  show (cfg0.win 1).cut (grid0.coords t) ((dat0 V c).after 1 t) = _
  rw [after0_1]
  unfold out0_1
  rw [View.canon_unit_zero zeros2]
  simp only [View.ld_unit_zero (S := S8x128x64x64) zeros4]
  obtain ⟨e0, e1, e2, e3, b0, b1⟩ := pool_index_facts t
  funext y
  show k0_pay1 (F := Ideal) (iblk0 V c 0 t) y
    = Cert.ReferenceIdeal.Read.val_main_v2 (F := Ideal) (V c main_arg0) (((cfg0.win 1).blk t).view.emb y)
  refine Cert.Bridge.pool_payload_at (V c main_arg0) (iblk0 V c 0 t) (win0_1.index t (0 : Fin 2)) (win0_1.index t (1 : Fin 2)) b0 b1
    (fun a => ?_) y _ ?_ ?_
  · show V c main_arg0 (((cfg0.win 0).blk t).view.emb a) = V c main_arg0 _
    refine congrArg (V c main_arg0) (funext fun d => Fin.ext ?_)
    match d with
    | ⟨0, _⟩ => show win0_0.index t (0 : Fin 4) * 8 + 1 * (a 0).val = win0_1.index t (0 : Fin 2) * 8 + (a 0).val; omega
    | ⟨1, _⟩ => show win0_0.index t (1 : Fin 4) * 128 + 1 * (a 1).val = win0_1.index t (1 : Fin 2) * 128 + (a 1).val; omega
    | ⟨2, _⟩ => show win0_0.index t (2 : Fin 4) * 64 + 1 * (a 2).val = (a 2).val; omega
    | ⟨3, _⟩ => show win0_0.index t (3 : Fin 4) * 64 + 1 * (a 3).val = (a 3).val; omega
  · show win0_1.index t (0 : Fin 2) * 8 + 1 * (y 0).val = win0_1.index t (0 : Fin 2) * 8 + (y 0).val; omega
  · show win0_1.index t (1 : Fin 2) * 128 + 1 * (y 1).val = win0_1.index t (1 : Fin 2) * 128 + (y 1).val; omega

/-- An entry of the output array is in point `t`'s block iff its row and channel are in the block's ranges. -/
theorem pool_mem_block (t : Fin cfg0.N) (i : S64x512.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v0).slice (win0_1.rect t)).set ↔ _
  rw [View.set_slice_whole, Rect.mem_set_unit]
  exact Iff.rfl

/-- Entry (r, c) lies in the block of the point with row block r / 8 and channel block c / 128, which is written back. -/
theorem pool_cover (i : S64x512.Idx) : ∃ t : Fin cfg0.N, (cfg0.win 1).flush t = true ∧ i ∈ ((cfg0.win 1).blk t).view.set := by
  have hi0 : (i 0).val < 64 := (i 0).isLt
  have hi1 : (i 1).val < 512 := (i 1).isLt
  obtain ⟨t, ht⟩ := pool_index_onto ⟨(i 0).val / 8, by omega⟩ ⟨(i 1).val / 128, by omega⟩
  have q0 : win0_1.index t (0 : Fin 2) = (i 0).val / 8 := congrFun ht 0
  have q1 : win0_1.index t (1 : Fin 2) = (i 1).val / 128 := congrFun ht 1
  refine ⟨t, flush0_1 t, ?_⟩
  rw [pool_mem_block]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- After the first launch the output array holds the reference's array of means of the argument. -/
theorem pooled (c : Dev nD) :
    (dat0 V c).arrAt 1 cfg0.N = Cert.ReferenceIdeal.Read.val_main_v2 (F := Ideal) (V c main_arg0) :=
  (dat0 V c).arrAt_eq_of_cover 1 (Cert.ReferenceIdeal.Read.val_main_v2 (F := Ideal) (V c main_arg0))
    (fun t _ => pool_flushed_eq V c t) pool_cover

end Cert.KernelIdeal.Hand

end
-- ==== Proof.Products.lean ====
/-
  Matrix products. The kernel multiplies by a TRANSPOSED weight, contracting the left operand's second axis with the
  transposed weight's first; the reference contracts the second axes of the untransposed operands. Read at an entry
  (b, h), over the extended reals, both are the one sum  ∑ₖ a[b, k] · w[h, k]  — and where no transpose is involved
  (the adjacency product) the two operations have the same dimension numbers and are the same sum term by term.
-/
import proofs.«146215_j73581379715677_1_alg».proof.Proof.Gen.KernelIdeal
import proofs.«146215_j73581379715677_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx

/-- A sum over a one-axis contraction index, re-indexed by that axis's coordinate. -/
theorem contr_sum_reindex {sl sr so : Shape} (D : DotDims sl sr so) (n : Nat) (hr : D.contr.rank = 1)
    (hs : D.contr.size ⟨0, by omega⟩ = n) (f : sl.Idx → EReal) (g : sr.Idx → EReal) (j : so.Idx)
    (L : Fin n → sl.Idx) (R : Fin n → sr.Idx)
    (hL : ∀ k, D.lhsIdx j ((contrEquiv1 D n hr hs).symm k) = L k)
    (hR : ∀ k, D.rhsIdx j ((contrEquiv1 D n hr hs).symm k) = R k) :
    ∑ q : D.contr.Idx, f (D.lhsIdx j q) * g (D.rhsIdx j q) = ∑ k : Fin n, f (L k) * g (R k) := by
  rw [← Equiv.sum_comp (contrEquiv1 D n hr hs).symm]
  exact Finset.sum_congr rfl fun k _ => by rw [hL k, hR k]

/-! ## The kernel's three products: where each operand is read -/

section KernelDots
open Cert.KernelIdeal

theorem kdot1_lhs0 (j : S64x128.Idx) (q : dot_S64x512_S512x128_S64x128_1_0_0_1_n_n.contr.Idx) : (dot_S64x512_S512x128_S64x128_1_0_0_1_n_n.lhsIdx j q 0).val = (j 0).val := by
  unfold DotDims.lhsIdx
  rw [dif_neg (show ¬(0 : Fin S64x512.rank) ∈ dot_S64x512_S512x128_S64x128_1_0_0_1_n_n.lhsBatch by decide), dif_pos (show (0 : Fin S64x512.rank) ∈ dot_S64x512_S512x128_S64x128_1_0_0_1_n_n.lhsNonContracting by decide)]
  rfl
theorem kdot1_lhs1 (j : S64x128.Idx) (q : dot_S64x512_S512x128_S64x128_1_0_0_1_n_n.contr.Idx) : (dot_S64x512_S512x128_S64x128_1_0_0_1_n_n.lhsIdx j q 1).val = (q ⟨0, by decide⟩).val :=
  dot_S64x512_S512x128_S64x128_1_0_0_1_n_n.lhsIdx_val_of_single rfl j q
theorem kdot1_rhs0 (j : S64x128.Idx) (q : dot_S64x512_S512x128_S64x128_1_0_0_1_n_n.contr.Idx) : (dot_S64x512_S512x128_S64x128_1_0_0_1_n_n.rhsIdx j q 0).val = (q ⟨0, by decide⟩).val :=
  dot_S64x512_S512x128_S64x128_1_0_0_1_n_n.rhsIdx_val_of_single rfl j q
theorem kdot1_rhs1 (j : S64x128.Idx) (q : dot_S64x512_S512x128_S64x128_1_0_0_1_n_n.contr.Idx) : (dot_S64x512_S512x128_S64x128_1_0_0_1_n_n.rhsIdx j q 1).val = (j 1).val := by
  unfold DotDims.rhsIdx
  rw [dif_neg (show ¬(1 : Fin S512x128.rank) ∈ dot_S64x512_S512x128_S64x128_1_0_0_1_n_n.rhsBatch by decide), dif_pos (show (1 : Fin S512x128.rank) ∈ dot_S64x512_S512x128_S64x128_1_0_0_1_n_n.rhsNonContracting by decide)]
  rfl
/-- At the entry (p, c) the left operand is read at (p, k), the right at (k, c). -/
theorem kdot1_lhs (p : Fin 64) (c : Fin 128) (k : Fin 512) :
    dot_S64x512_S512x128_S64x128_1_0_0_1_n_n.lhsIdx (ix2 p c) ((contrEquiv1 dot_S64x512_S512x128_S64x128_1_0_0_1_n_n 512 rfl rfl).symm k) = (ix2 p k : S64x512.Idx) :=
  funext fun a => Fin.ext (by
    match a with
    | ⟨0, _⟩ => exact kdot1_lhs0 _ _
    | ⟨1, _⟩ => exact (kdot1_lhs1 _ _).trans (contrEquiv1_symm_val dot_S64x512_S512x128_S64x128_1_0_0_1_n_n 512 rfl rfl k))
theorem kdot1_rhs (p : Fin 64) (c : Fin 128) (k : Fin 512) :
    dot_S64x512_S512x128_S64x128_1_0_0_1_n_n.rhsIdx (ix2 p c) ((contrEquiv1 dot_S64x512_S512x128_S64x128_1_0_0_1_n_n 512 rfl rfl).symm k) = (ix2 k c : S512x128.Idx) :=
  funext fun a => Fin.ext (by
    match a with
    | ⟨0, _⟩ => exact (kdot1_rhs0 _ _).trans (contrEquiv1_symm_val dot_S64x512_S512x128_S64x128_1_0_0_1_n_n 512 rfl rfl k)
    | ⟨1, _⟩ => exact kdot1_rhs1 _ _)

theorem kdot2_lhs0 (j : S64x128.Idx) (q : dot_S64x128_S128x128_S64x128_1_0_0_1_n_n.contr.Idx) : (dot_S64x128_S128x128_S64x128_1_0_0_1_n_n.lhsIdx j q 0).val = (j 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem kdot2_lhs1 (j : S64x128.Idx) (q : dot_S64x128_S128x128_S64x128_1_0_0_1_n_n.contr.Idx) : (dot_S64x128_S128x128_S64x128_1_0_0_1_n_n.lhsIdx j q 1).val = (q ⟨0, by decide⟩).val :=
  dot_S64x128_S128x128_S64x128_1_0_0_1_n_n.lhsIdx_val_of_single rfl j q
theorem kdot2_rhs0 (j : S64x128.Idx) (q : dot_S64x128_S128x128_S64x128_1_0_0_1_n_n.contr.Idx) : (dot_S64x128_S128x128_S64x128_1_0_0_1_n_n.rhsIdx j q 0).val = (q ⟨0, by decide⟩).val :=
  dot_S64x128_S128x128_S64x128_1_0_0_1_n_n.rhsIdx_val_of_single rfl j q
theorem kdot2_rhs1 (j : S64x128.Idx) (q : dot_S64x128_S128x128_S64x128_1_0_0_1_n_n.contr.Idx) : (dot_S64x128_S128x128_S64x128_1_0_0_1_n_n.rhsIdx j q 1).val = (j 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl
/-- At the entry (p, c) the left operand is read at (p, k), the right at (k, c). -/
theorem kdot2_lhs (p : Fin 64) (c : Fin 128) (k : Fin 128) :
    dot_S64x128_S128x128_S64x128_1_0_0_1_n_n.lhsIdx (ix2 p c) ((contrEquiv1 dot_S64x128_S128x128_S64x128_1_0_0_1_n_n 128 rfl rfl).symm k) = (ix2 p k : S64x128.Idx) :=
  funext fun a => Fin.ext (by
    match a with
    | ⟨0, _⟩ => exact kdot2_lhs0 _ _
    | ⟨1, _⟩ => exact (kdot2_lhs1 _ _).trans (contrEquiv1_symm_val dot_S64x128_S128x128_S64x128_1_0_0_1_n_n 128 rfl rfl k))
theorem kdot2_rhs (p : Fin 64) (c : Fin 128) (k : Fin 128) :
    dot_S64x128_S128x128_S64x128_1_0_0_1_n_n.rhsIdx (ix2 p c) ((contrEquiv1 dot_S64x128_S128x128_S64x128_1_0_0_1_n_n 128 rfl rfl).symm k) = (ix2 k c : S128x128.Idx) :=
  funext fun a => Fin.ext (by
    match a with
    | ⟨0, _⟩ => exact (kdot2_rhs0 _ _).trans (contrEquiv1_symm_val dot_S64x128_S128x128_S64x128_1_0_0_1_n_n 128 rfl rfl k)
    | ⟨1, _⟩ => exact kdot2_rhs1 _ _)

theorem kdot3_lhs0 (j : S64x512.Idx) (q : dot_S64x128_S128x512_S64x512_1_0_0_1_n_n.contr.Idx) : (dot_S64x128_S128x512_S64x512_1_0_0_1_n_n.lhsIdx j q 0).val = (j 0).val := by
  unfold DotDims.lhsIdx
  rw [dif_neg (show ¬(0 : Fin S64x128.rank) ∈ dot_S64x128_S128x512_S64x512_1_0_0_1_n_n.lhsBatch by decide), dif_pos (show (0 : Fin S64x128.rank) ∈ dot_S64x128_S128x512_S64x512_1_0_0_1_n_n.lhsNonContracting by decide)]
  rfl
theorem kdot3_lhs1 (j : S64x512.Idx) (q : dot_S64x128_S128x512_S64x512_1_0_0_1_n_n.contr.Idx) : (dot_S64x128_S128x512_S64x512_1_0_0_1_n_n.lhsIdx j q 1).val = (q ⟨0, by decide⟩).val :=
  dot_S64x128_S128x512_S64x512_1_0_0_1_n_n.lhsIdx_val_of_single rfl j q
theorem kdot3_rhs0 (j : S64x512.Idx) (q : dot_S64x128_S128x512_S64x512_1_0_0_1_n_n.contr.Idx) : (dot_S64x128_S128x512_S64x512_1_0_0_1_n_n.rhsIdx j q 0).val = (q ⟨0, by decide⟩).val :=
  dot_S64x128_S128x512_S64x512_1_0_0_1_n_n.rhsIdx_val_of_single rfl j q
theorem kdot3_rhs1 (j : S64x512.Idx) (q : dot_S64x128_S128x512_S64x512_1_0_0_1_n_n.contr.Idx) : (dot_S64x128_S128x512_S64x512_1_0_0_1_n_n.rhsIdx j q 1).val = (j 1).val := by
  unfold DotDims.rhsIdx
  rw [dif_neg (show ¬(1 : Fin S128x512.rank) ∈ dot_S64x128_S128x512_S64x512_1_0_0_1_n_n.rhsBatch by decide), dif_pos (show (1 : Fin S128x512.rank) ∈ dot_S64x128_S128x512_S64x512_1_0_0_1_n_n.rhsNonContracting by decide)]
  rfl
/-- At the entry (p, c) the left operand is read at (p, k), the right at (k, c). -/
theorem kdot3_lhs (p : Fin 64) (c : Fin 512) (k : Fin 128) :
    dot_S64x128_S128x512_S64x512_1_0_0_1_n_n.lhsIdx (ix2 p c) ((contrEquiv1 dot_S64x128_S128x512_S64x512_1_0_0_1_n_n 128 rfl rfl).symm k) = (ix2 p k : S64x128.Idx) :=
  funext fun a => Fin.ext (by
    match a with
    | ⟨0, _⟩ => exact kdot3_lhs0 _ _
    | ⟨1, _⟩ => exact (kdot3_lhs1 _ _).trans (contrEquiv1_symm_val dot_S64x128_S128x512_S64x512_1_0_0_1_n_n 128 rfl rfl k))
theorem kdot3_rhs (p : Fin 64) (c : Fin 512) (k : Fin 128) :
    dot_S64x128_S128x512_S64x512_1_0_0_1_n_n.rhsIdx (ix2 p c) ((contrEquiv1 dot_S64x128_S128x512_S64x512_1_0_0_1_n_n 128 rfl rfl).symm k) = (ix2 k c : S128x512.Idx) :=
  funext fun a => Fin.ext (by
    match a with
    | ⟨0, _⟩ => exact (kdot3_rhs0 _ _).trans (contrEquiv1_symm_val dot_S64x128_S128x512_S64x512_1_0_0_1_n_n 128 rfl rfl k)
    | ⟨1, _⟩ => exact kdot3_rhs1 _ _)

end KernelDots

/-! ## The reference's three products: where each operand is read -/

section ReferenceDots
open Cert.ReferenceIdeal

theorem rdot1_lhs (p : Fin 64) (c : Fin 128) (k : Fin 512) :
    dot_S64x512_S128x512_S64x128_1_1_0_0_n_n.lhsIdx (ix2 p c) ((contrEquiv1 dot_S64x512_S128x512_S64x128_1_1_0_0_n_n 512 rfl rfl).symm k) = (ix2 p k : S64x512.Idx) :=
  funext fun a => Fin.ext (by
    match a with
    | ⟨0, _⟩ => exact Read.lhs_main_v3_0 _ _
    | ⟨1, _⟩ => exact (Read.lhs_main_v3_1 _ _).trans (contrEquiv1_symm_val dot_S64x512_S128x512_S64x128_1_1_0_0_n_n 512 rfl rfl k))
theorem rdot1_rhs (p : Fin 64) (c : Fin 128) (k : Fin 512) :
    dot_S64x512_S128x512_S64x128_1_1_0_0_n_n.rhsIdx (ix2 p c) ((contrEquiv1 dot_S64x512_S128x512_S64x128_1_1_0_0_n_n 512 rfl rfl).symm k) = (ix2 c k : S128x512.Idx) :=
  funext fun a => Fin.ext (by
    match a with
    | ⟨0, _⟩ => exact Read.rhs_main_v3_0 _ _
    | ⟨1, _⟩ => exact (Read.rhs_main_v3_1 _ _).trans (contrEquiv1_symm_val dot_S64x512_S128x512_S64x128_1_1_0_0_n_n 512 rfl rfl k))

theorem rdot2_lhs (p : Fin 64) (c : Fin 128) (k : Fin 128) :
    dot_S64x128_S128x128_S64x128_1_0_0_1_n_n.lhsIdx (ix2 p c) ((contrEquiv1 dot_S64x128_S128x128_S64x128_1_0_0_1_n_n 128 rfl rfl).symm k) = (ix2 p k : S64x128.Idx) :=
  funext fun a => Fin.ext (by
    match a with
    | ⟨0, _⟩ => exact Read.lhs_main_v18_0 _ _
    | ⟨1, _⟩ => exact (Read.lhs_main_v18_1 _ _).trans (contrEquiv1_symm_val dot_S64x128_S128x128_S64x128_1_0_0_1_n_n 128 rfl rfl k))
theorem rdot2_rhs (p : Fin 64) (c : Fin 128) (k : Fin 128) :
    dot_S64x128_S128x128_S64x128_1_0_0_1_n_n.rhsIdx (ix2 p c) ((contrEquiv1 dot_S64x128_S128x128_S64x128_1_0_0_1_n_n 128 rfl rfl).symm k) = (ix2 k c : S128x128.Idx) :=
  funext fun a => Fin.ext (by
    match a with
    | ⟨0, _⟩ => exact (Read.rhs_main_v18_0 _ _).trans (contrEquiv1_symm_val dot_S64x128_S128x128_S64x128_1_0_0_1_n_n 128 rfl rfl k)
    | ⟨1, _⟩ => exact Read.rhs_main_v18_1 _ _)

theorem rdot3_lhs (p : Fin 64) (c : Fin 512) (k : Fin 128) :
    dot_S64x128_S512x128_S64x512_1_1_0_0_n_n.lhsIdx (ix2 p c) ((contrEquiv1 dot_S64x128_S512x128_S64x512_1_1_0_0_n_n 128 rfl rfl).symm k) = (ix2 p k : S64x128.Idx) :=
  funext fun a => Fin.ext (by
    match a with
    | ⟨0, _⟩ => exact Read.lhs_main_v23_0 _ _
    | ⟨1, _⟩ => exact (Read.lhs_main_v23_1 _ _).trans (contrEquiv1_symm_val dot_S64x128_S512x128_S64x512_1_1_0_0_n_n 128 rfl rfl k))
theorem rdot3_rhs (p : Fin 64) (c : Fin 512) (k : Fin 128) :
    dot_S64x128_S512x128_S64x512_1_1_0_0_n_n.rhsIdx (ix2 p c) ((contrEquiv1 dot_S64x128_S512x128_S64x512_1_1_0_0_n_n 128 rfl rfl).symm k) = (ix2 c k : S512x128.Idx) :=
  funext fun a => Fin.ext (by
    match a with
    | ⟨0, _⟩ => exact Read.rhs_main_v23_0 _ _
    | ⟨1, _⟩ => exact (Read.rhs_main_v23_1 _ _).trans (contrEquiv1_symm_val dot_S64x128_S512x128_S64x512_1_1_0_0_n_n 128 rfl rfl k))

end ReferenceDots

/-! ## The three products are the reference's -/

/-- `pooled · W1ᵀ`: the kernel's product with the transposed [128, 512] weight is the reference's contraction of the
    two second axes: at (b, h) both are ∑ₖ a[b, k] · w[h, k]. -/
theorem matmul_transposed_W1 (a : FVec Ideal Cert.KernelIdeal.S64x512 .f32) (w : FVec Ideal Cert.KernelIdeal.S128x512 .f32) :
    matmul Cert.KernelIdeal.dot_S64x512_S512x128_S64x128_1_0_0_1_n_n none a (transpose Cert.KernelIdeal.S512x128 [1, 0] w Cert.KernelIdeal.Facts₀.transposes_S128x512_p1_0_S512x128)
        (constant Cert.KernelIdeal.S64x128 .f32 0x00000000#32)
      = Host.dotGeneral Cert.ReferenceIdeal.dot_S64x512_S128x512_S64x128_1_1_0_0_n_n none a w := by
  funext j
  obtain ⟨p, c, rfl⟩ : ∃ (p : Fin 64) (c : Fin 128), j = ix2 p c := ⟨j 0, j 1, eq_ix2 j⟩
  refine (Ideal.matmul_constant_zero_apply _ none a _ _).trans ?_
  refine Eq.trans ?_ (Ideal.dotGeneral_apply _ none .single a w _).symm
  rw [contr_sum_reindex Cert.KernelIdeal.dot_S64x512_S512x128_S64x128_1_0_0_1_n_n 512 rfl rfl a _ (ix2 p c) _ _ (kdot1_lhs p c) (kdot1_rhs p c),
    contr_sum_reindex Cert.ReferenceIdeal.dot_S64x512_S128x512_S64x128_1_1_0_0_n_n 512 rfl rfl a w (ix2 p c) _ _ (rdot1_lhs p c) (rdot1_rhs p c)]
  refine Finset.sum_congr rfl fun k _ => ?_
  rw [transpose_ix2_apply]

/-- `y · A2`: no transpose, and the two operations carry the same dimension numbers: at (b, k') both are ∑ₕ y[b, h] · A2[h, k']. -/
theorem matmul_A2 (a : FVec Ideal Cert.KernelIdeal.S64x128 .f32) (w : FVec Ideal Cert.KernelIdeal.S128x128 .f32) :
    matmul Cert.KernelIdeal.dot_S64x128_S128x128_S64x128_1_0_0_1_n_n none a w
        (constant Cert.KernelIdeal.S64x128 .f32 0x00000000#32)
      = Host.dotGeneral Cert.ReferenceIdeal.dot_S64x128_S128x128_S64x128_1_0_0_1_n_n none a w := by
  funext j
  obtain ⟨p, c, rfl⟩ : ∃ (p : Fin 64) (c : Fin 128), j = ix2 p c := ⟨j 0, j 1, eq_ix2 j⟩
  refine (Ideal.matmul_constant_zero_apply _ none a _ _).trans ?_
  refine Eq.trans ?_ (Ideal.dotGeneral_apply _ none .single a w _).symm
  rw [contr_sum_reindex Cert.KernelIdeal.dot_S64x128_S128x128_S64x128_1_0_0_1_n_n 128 rfl rfl a _ (ix2 p c) _ _ (kdot2_lhs p c) (kdot2_rhs p c),
    contr_sum_reindex Cert.ReferenceIdeal.dot_S64x128_S128x128_S64x128_1_0_0_1_n_n 128 rfl rfl a w (ix2 p c) _ _ (rdot2_lhs p c) (rdot2_rhs p c)]

/-- `relu(…) · W4ᵀ`: as the first product, with the transposed [512, 128] weight: at (b, o) both are ∑ₕ a[b, h] · w[o, h]. -/
theorem matmul_transposed_W4 (a : FVec Ideal Cert.KernelIdeal.S64x128 .f32) (w : FVec Ideal Cert.KernelIdeal.S512x128 .f32) :
    matmul Cert.KernelIdeal.dot_S64x128_S128x512_S64x512_1_0_0_1_n_n none a (transpose Cert.KernelIdeal.S128x512 [1, 0] w Cert.KernelIdeal.Facts₀.transposes_S512x128_p1_0_S128x512)
        (constant Cert.KernelIdeal.S64x512 .f32 0x00000000#32)
      = Host.dotGeneral Cert.ReferenceIdeal.dot_S64x128_S512x128_S64x512_1_1_0_0_n_n none a w := by
  funext j
  obtain ⟨p, c, rfl⟩ : ∃ (p : Fin 64) (c : Fin 512), j = ix2 p c := ⟨j 0, j 1, eq_ix2 j⟩
  refine (Ideal.matmul_constant_zero_apply _ none a _ _).trans ?_
  refine Eq.trans ?_ (Ideal.dotGeneral_apply _ none .single a w _).symm
  rw [contr_sum_reindex Cert.KernelIdeal.dot_S64x128_S128x512_S64x512_1_0_0_1_n_n 128 rfl rfl a _ (ix2 p c) _ _ (kdot3_lhs p c) (kdot3_rhs p c),
    contr_sum_reindex Cert.ReferenceIdeal.dot_S64x128_S512x128_S64x512_1_1_0_0_n_n 128 rfl rfl a w (ix2 p c) _ _ (rdot3_lhs p c) (rdot3_rhs p c)]
  refine Finset.sum_congr rfl fun k _ => ?_
  rw [transpose_ix2_apply]

end Cert.Bridge

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.RowsAndScalars.lean ====
/-
  The steps of the second kernel that are not matrix products, each shown to be the reference's operation on the
  extended reals, for ANY operand:
  · a scalar weight, carried as a [1, 1] array and read back at (0, 0), splat over [64, 128], is the rank-0 tensor
    broadcast to [64, 128]; a literal splat is the broadcast of the rank-0 constant;
  · the row maximum and the row sum of the softmax: the kernel's reductions and the reference's fold the same
    elements of each row from the same start (the order of a maximum or of an exact sum is immaterial);
  · a row statistic [64], cast to a column [64, 1] and broadcast over the 128 lanes, is the reference's two
    broadcasts: both read the statistic of the entry's row;
  · the logistic function is 1 / (1 + e⁻ˣ), spelt by the reference as a division, a sum, an exponential and a negation;
  · appending two unit axes to the [64, 512] result moves no element.
-/
import proofs.«146215_j73581379715677_1_alg».proof.Proof.Gen.KernelIdeal
import proofs.«146215_j73581379715677_1_alg».proof.Proof.Gen.ReferenceIdeal.Read
import proofs.«146215_j73581379715677_1_alg».proof.Proof.LibColumnForms
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx Idealize.ShloMosaic.ValueLayout
open Cert.KernelIdeal

/-! ## Scalars and literal splats -/

/-- The one element of a rank-0 array and the one element of a [1, 1] array sit at the same row-major position. -/
theorem rowMajor_scalar (k : S_.Idx) (j : S1x1.Idx) : (S_.rowMajor k).val = (S1x1.rowMajor j).val := by
  have h0 := (S_.rowMajor k).isLt
  have h1 := (S1x1.rowMajor j).isLt
  have e0 : S_.numel = 1 := by decide
  have e1 : S1x1.numel = 1 := by decide
  omega

/-- A scalar weight reshaped to [1, 1], read at (0, 0) and splat over [64, 128] is the scalar broadcast to [64, 128]. -/
theorem splat_of_scalar (x : FVec Ideal S_ .f32) :
    broadcast S64x128 (extractAt ![0, 0] (shapeCast S1x1 x Facts₀.shapeCasts_S_S1x1) Facts₀.inpos_S1x1_p0_0)
      = broadcastInDim S64x128 ![] Cert.ReferenceIdeal.Facts₀.bcast_S_S64x128 x := by
  funext i
  refine Eq.trans ?_ (broadcastInDim_apply _ Cert.ReferenceIdeal.Facts₀.bcast_S_S64x128 x i ix0 (fun a => a.elim0)).symm
  exact shapeCast_apply x Facts₀.shapeCasts_S_S1x1 _ ix0 (rowMajor_scalar _ _)

/-- The splat of -∞ over the 64 rows. -/
theorem splat_neg_inf :
    broadcast S64 (Scalar.ofBits (F := Ideal) .f32 0xFF800000#32)
      = broadcastInDim S64 ![] Cert.ReferenceIdeal.Facts₀.bcast_S_S64 (constant (F := Ideal) S_ .f32 0xFF800000#32) := by
  funext i
  exact (broadcastInDim_apply _ Cert.ReferenceIdeal.Facts₀.bcast_S_S64 (constant (F := Ideal) S_ .f32 0xFF800000#32) i ix0 (fun a => a.elim0)).symm

/-- The splat of 0 over [64, 128] (the floor of the relu). -/
theorem splat_zero :
    broadcast S64x128 (Scalar.ofBits (F := Ideal) .f32 0x00000000#32)
      = broadcastInDim S64x128 ![] Cert.ReferenceIdeal.Facts₀.bcast_S_S64x128 (constant (F := Ideal) S_ .f32 0x00000000#32) := by
  funext i
  exact (broadcastInDim_apply _ Cert.ReferenceIdeal.Facts₀.bcast_S_S64x128 (constant (F := Ideal) S_ .f32 0x00000000#32) i ix0 (fun a => a.elim0)).symm

/-! ## The row statistics of the softmax -/

/-- The row maximum: both fold `max` from -∞ over the 128 entries of the row. -/
theorem row_max_eq (v : FVec Ideal S64x128 .f32) :
    multiReduction .maximumf [1] S64 v 0xFF800000#32 Facts₀.reduces_S64x128_S64 (.inl rfl) rfl
      = Host.reduce FloatOps.maximumf v (constant (F := Ideal) S_ .f32 0xFF800000#32)
          Cert.ReferenceIdeal.Facts₀.reducesTo_S64x128_S64_d1 Cert.ReferenceIdeal.Facts₀.h_S_ := by
  funext j
  refine (multiReduction_maximumf_eq_fold v 0xFF800000#32 Facts₀.reduces_S64x128_S64 (.inl rfl) rfl j).trans ?_
  exact (Host.reduce_eq_fold FloatOps.maximumf v (constant (F := Ideal) S_ .f32 0xFF800000#32)
    Cert.ReferenceIdeal.Facts₀.reducesTo_S64x128_S64_d1 Cert.ReferenceIdeal.Facts₀.h_S_ j).symm

/-- The row sum: the kernel's is the sum of the row's 128 entries, the reference's is 0 plus that sum. -/
theorem row_sum_eq (v : FVec Ideal S64x128 .f32) :
    multiReduction .add [1] S64 v 0x00000000#32 Facts₀.reduces_S64x128_S64 (.inl rfl) rfl
      = Host.reduceAdd v (constant (F := Ideal) S_ .f32 0x00000000#32)
          Cert.ReferenceIdeal.Facts₀.reducesTo_S64x128_S64_d1 Cert.ReferenceIdeal.Facts₀.h_S_ := by
  funext j
  show Ideal.reduceAdd Facts₀.reduces_S64x128_S64 v j
    = Ideal.hostReduceAdd Cert.ReferenceIdeal.Facts₀.reducesTo_S64x128_S64_d1 v (Ideal.ofBits .f32 0x00000000#32) j
  unfold Ideal.reduceAdd Ideal.hostReduceAdd
  rw [Ideal.ofBits_zero_f32, zero_add]
  rfl

/-- A row statistic cast to a column and broadcast over the lanes: at (p, c) both sides read the statistic of row p. -/
theorem column_broadcast_eq (v : FVec Ideal S64 .f32) :
    broadcastTo S64x128 (shapeCast S64x1 v Facts₀.shapeCasts_S64_S64x1) Facts₀.broadcasts_S64x1_S64x128
      = broadcastInDim S64x128 ![0, 1] Cert.ReferenceIdeal.Facts₀.bcast_S64x1_S64x128_0_1
          (broadcastInDim S64x1 ![0] Cert.ReferenceIdeal.Facts₀.bcast_S64_S64x1_0 v) := by
  funext j
  obtain ⟨p, c, rfl⟩ : ∃ (p : Fin 64) (c : Fin 128), j = ix2 p c := ⟨j 0, j 1, eq_ix2 j⟩
  refine (broadcastTo_a1_ab_apply _ Facts₀.broadcasts_S64x1_S64x128 p c).trans ?_
  refine (shapeCast_a_a1_apply v Facts₀.shapeCasts_S64_S64x1 p (0 : Fin 1)).trans ?_
  refine Eq.trans ?_ (broadcastInDim_apply _ Cert.ReferenceIdeal.Facts₀.bcast_S64x1_S64x128_0_1 _ (ix2 p c) (ix2 p (0 : Fin 1)) (fun a => match a with
    | ⟨0, _⟩ => by show p.val = if (64 : Nat) = 1 then 0 else p.val; rw [if_neg (by decide)]
    | ⟨1, _⟩ => by show 0 = if (1 : Nat) = 1 then 0 else c.val; rw [if_pos rfl])).symm
  exact (broadcastInDim_apply _ Cert.ReferenceIdeal.Facts₀.bcast_S64_S64x1_0 v (ix2 p (0 : Fin 1)) (ix1 p) (fun a => match a with
    | ⟨0, _⟩ => by show p.val = if (64 : Nat) = 1 then 0 else p.val; rw [if_neg (by decide)])).symm

/-! ## The pointwise steps the two programs spell differently -/

theorem exp_eq_host {s : Shape} (v : FVec Ideal s .f32) : exp v = Host.exp v := rfl

theorem divf_eq_host {s : Shape} (a b : FVec Ideal s .f32) : divf a b = Host.divf a b := rfl

/-- The pattern 0x3F800000 is the real number 1. -/
theorem one_f32 : Ideal.ofBits .f32 0x3F800000#32 = 1 := IdealRules.sign_bit.ideal_onePat .f32

/-- The logistic function, as the reference spells it: 1 / (1 + exp (-x)). -/
theorem logistic_eq_host (v : FVec Ideal S64x512 .f32) :
    logistic v
      = Host.divf (broadcastInDim S64x512 ![] Cert.ReferenceIdeal.Facts₀.bcast_S_S64x512 (constant (F := Ideal) S_ .f32 0x3F800000#32))
          (addf (broadcastInDim S64x512 ![] Cert.ReferenceIdeal.Facts₀.bcast_S_S64x512 (constant (F := Ideal) S_ .f32 0x3F800000#32))
            (Host.exp (Host.negf v))) := by
  funext i
  have h1 : broadcastInDim S64x512 ![] Cert.ReferenceIdeal.Facts₀.bcast_S_S64x512 (constant (F := Ideal) S_ .f32 0x3F800000#32) i
      = (1 : EReal) :=
    (broadcastInDim_apply _ Cert.ReferenceIdeal.Facts₀.bcast_S_S64x512 (constant (F := Ideal) S_ .f32 0x3F800000#32) i ix0 (fun a => a.elim0)).trans one_f32
  show Ideal.logistic (v i)
    = Ideal.div (broadcastInDim S64x512 ![] Cert.ReferenceIdeal.Facts₀.bcast_S_S64x512 (constant (F := Ideal) S_ .f32 0x3F800000#32) i)
        (broadcastInDim S64x512 ![] Cert.ReferenceIdeal.Facts₀.bcast_S_S64x512 (constant (F := Ideal) S_ .f32 0x3F800000#32) i + Ideal.exp (-(v i)))
  rw [h1]
  rfl

/-! ## The result's two unit axes -/

/-- The [64, 512] result reshaped to [64, 512, 1, 1] is the reference's broadcast along the two new unit axes: the element
    at (b, o, 0, 0) is the element at (b, o). -/
theorem unit_axes_eq (v : FVec Ideal S64x512 .f32) :
    shapeCast S64x512x1x1 v Facts₀.shapeCasts_S64x512_S64x512x1x1
      = broadcastInDim S64x512x1x1 ![0, 1] Cert.ReferenceIdeal.Facts₀.bcast_S64x512_S64x512x1x1_0_1 v := by
  funext i
  refine (shapeCast_apply v Facts₀.shapeCasts_S64x512_S64x512x1x1 i (Cert.ReferenceIdeal.Read.idx_main_v30 i) ?_).trans
    (broadcastInDim_apply _ Cert.ReferenceIdeal.Facts₀.bcast_S64x512_S64x512x1x1_0_1 v i (Cert.ReferenceIdeal.Read.idx_main_v30 i) (fun a => match a with
      | ⟨0, _⟩ => by show (i 0).val = if (64 : Nat) = 1 then 0 else (i 0).val; rw [if_neg (by decide)]
      | ⟨1, _⟩ => by show (i 1).val = if (512 : Nat) = 1 then 0 else (i 1).val; rw [if_neg (by decide)])).symm
  rw [Shape.rowMajor_val_two, Shape.rowMajor_val_four]
  show (i 0).val * 512 + (i 1).val = (((i 0).val * 512 + (i 1).val) * 1 + (i 2).val) * 1 + (i 3).val
  have h2 : (i 2).val < 1 := (i 2).isLt
  have h3 : (i 3).val < 1 := (i 3).isLt
  omega

end Cert.Bridge

end
-- ==== Proof.MlpBridge.lean ====
/-
  The second kernel's whole body is the reference from its first product on. With the pooled means a, the weights W1,
  A2, W4 and the scalars w2, w3 (the latter two carried as [1, 1] arrays), the body computes
      y   = a · W1ᵀ
      s   = softmax over each row of  w2 · y      (exp (w2·y − rowmax) / rowsum)
      out = logistic ( relu ( w3 · ( y ⊙ s + y · A2 ) ) · W4ᵀ ),   with two unit axes appended,
  and the reference computes the same expression operation for operation: every step is the reference's step by the
  laws of the product and row-statistic modules, so the two terms coincide with no algebra on the extended reals.
-/
import proofs.«146215_j73581379715677_1_alg».proof.Proof.Gen.KernelIdeal.Skeleton
import proofs.«146215_j73581379715677_1_alg».proof.Proof.Products
import proofs.«146215_j73581379715677_1_alg».proof.Proof.RowsAndScalars

noncomputable section

namespace Cert.Bridge

open Idealize.ShloMosaic Idealize.ShloMosaic.ValueIdx
open Cert.KernelIdeal Cert.KernelIdeal.Gen

set_option maxHeartbeats 400000 in
/-- The body of the second kernel, applied to the pooled means as the reference computes them (`val_main_v2`), to the
    weights, and to the two scalars reshaped to [1, 1], and then reshaped to [64, 512, 1, 1], is the reference's result. -/
theorem mlp_body_eq (x0 : FVec Ideal S64x512x64x64 .f32) (x1 : FVec Ideal S128x512 .f32) (x2 : FVec Ideal S128x128 .f32)
    (x3 x4 : FVec Ideal S_ .f32) (x5 : FVec Ideal S512x128 .f32) :
    shapeCast S64x512x1x1
        (k1_pay1 (F := Ideal) (Cert.ReferenceIdeal.Read.val_main_v2 (F := Ideal) x0) x1 x2
          (shapeCast S1x1 x3 Facts₀.shapeCasts_S_S1x1) (shapeCast S1x1 x4 Facts₀.shapeCasts_S_S1x1) x5)
        Facts₀.shapeCasts_S64x512_S64x512x1x1
      = Cert.ReferenceIdeal.Read.val_main_v30 (F := Ideal) x0 x1 x2 x3 x4 x5 := by
  unfold k1_pay1
  dsimp only
  -- y = a · W1ᵀ
  rw [shapeCast_self, matmul_transposed_W1]
  -- the two scalar weights
  rw [splat_of_scalar x3, splat_of_scalar x4]
  -- the softmax: row maximum, exponential, row sum, quotient
  rw [splat_neg_inf, row_max_eq, column_broadcast_eq]
  rw [exp_eq_host, row_sum_eq, column_broadcast_eq, divf_eq_host]
  -- y · A2, the relu's floor, the last product, the logistic, the unit axes
  rw [matmul_A2, splat_zero, matmul_transposed_W4, logistic_eq_host, unit_axes_eq]
  rfl

end Cert.Bridge

end
-- ==== Proof.MlpValue.lean ====
/-
  The second launch and the reshapes around it. The second launch has one grid point and every window is a whole array, so
  each input block IS its array and the one write-back covers the output array: the output ends holding the kernel body's
  value on the six arrays as the launch finds them. Those are: the pooled means the first launch left (the reference's
  array of means of the first argument), the three weight arguments as launched, and the two scalar arguments reshaped to
  [1, 1]. The program's result is that value with two unit axes appended — which is the reference's result.
-/
import proofs.«146215_j73581379715677_1_alg».proof.Proof.Gen.KernelIdeal.Frame
import proofs.«146215_j73581379715677_1_alg».proof.Proof.PoolValue
import proofs.«146215_j73581379715677_1_alg».proof.Proof.MlpBridge
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

section Launch
variable (V : (c : Dev nD) → (b : Ref sig .tc) → Buf (Elt Ideal) ((c : Thread nD τ).loc b))

/-! ## Each input block of the one grid point is its whole array -/

theorem mlp_block0 (c : Dev nD) : (iblk1 V c 0 t1_0 : Vec Ideal S64x512 .f32) = V c main_v0 := by
  have hz : (fun a => win1_0.index t1_0 a * main_v0.ty.shape.size a) = fun _ => 0 := funext fun a => by fin_cases a <;> decide
  exact Memref.read_access_unit_zero (Elt Ideal) main_v0 hz (fun a => by rw [congrFun hz a]; simp) (V c main_v0)
theorem mlp_block1 (c : Dev nD) : (iblk1 V c 1 t1_0 : Vec Ideal S128x512 .f32) = V c main_arg1 := by
  have hz : (fun a => win1_1.index t1_0 a * main_arg1.ty.shape.size a) = fun _ => 0 := funext fun a => by fin_cases a <;> decide
  exact Memref.read_access_unit_zero (Elt Ideal) main_arg1 hz (fun a => by rw [congrFun hz a]; simp) (V c main_arg1)
theorem mlp_block2 (c : Dev nD) : (iblk1 V c 2 t1_0 : Vec Ideal S128x128 .f32) = V c main_arg2 := by
  have hz : (fun a => win1_2.index t1_0 a * main_arg2.ty.shape.size a) = fun _ => 0 := funext fun a => by fin_cases a <;> decide
  exact Memref.read_access_unit_zero (Elt Ideal) main_arg2 hz (fun a => by rw [congrFun hz a]; simp) (V c main_arg2)
theorem mlp_block3 (c : Dev nD) : (iblk1 V c 3 t1_0 : Vec Ideal S1x1 .f32) = V c main_v1 := by
  have hz : (fun a => win1_3.index t1_0 a * main_v1.ty.shape.size a) = fun _ => 0 := funext fun a => by fin_cases a <;> decide
  exact Memref.read_access_unit_zero (Elt Ideal) main_v1 hz (fun a => by rw [congrFun hz a]; simp) (V c main_v1)
theorem mlp_block4 (c : Dev nD) : (iblk1 V c 4 t1_0 : Vec Ideal S1x1 .f32) = V c main_v2 := by
  have hz : (fun a => win1_4.index t1_0 a * main_v2.ty.shape.size a) = fun _ => 0 := funext fun a => by fin_cases a <;> decide
  exact Memref.read_access_unit_zero (Elt Ideal) main_v2 hz (fun a => by rw [congrFun hz a]; simp) (V c main_v2)
theorem mlp_block5 (c : Dev nD) : (iblk1 V c 5 t1_0 : Vec Ideal S512x128 .f32) = V c main_arg5 := by
  have hz : (fun a => win1_5.index t1_0 a * main_arg5.ty.shape.size a) = fun _ => 0 := funext fun a => by fin_cases a <;> decide
  exact Memref.read_access_unit_zero (Elt Ideal) main_arg5 hz (fun a => by rw [congrFun hz a]; simp) (V c main_arg5)

/-- The kernel body's value on the six arrays as the launch finds them. -/
abbrev mlpValue (c : Dev nD) : Vec Ideal S64x512 .f32 :=
  k1_pay1 (F := Ideal) (V c main_v0) (V c main_arg1) (V c main_arg2) (V c main_v1) (V c main_v2) (V c main_arg5)

/-- The one write-back writes that value: the output block is the whole output array. -/
theorem mlp_flushed_eq (c : Dev nD) (t : Fin cfg1.N) :
    (dat1 V c).flushed 6 t = ((cfg1.win 6).blk t).view.read (Elt Ideal) (mlpValue V c) := by
  obtain rfl := fin_N1 t
  show (cfg1.win 6).cut (grid1.coords t1_0) ((dat1 V c).after 6 t1_0) = _
  rw [after1_6]
  unfold out1_6
  rw [View.canon_unit_zero zeros2]
  simp only [View.ld_unit_zero (S := S64x512) zeros2, View.ld_unit_zero (S := S128x512) zeros2,
    View.ld_unit_zero (S := S128x128) zeros2, View.ld_unit_zero (S := S1x1) zeros2, View.ld_unit_zero (S := S512x128) zeros2]
  rw [mlp_block0, mlp_block1, mlp_block2, mlp_block3, mlp_block4, mlp_block5]
  have hz : (fun a => win1_6.index t1_0 a * main_v3.ty.shape.size a) = fun _ => 0 := funext fun a => by fin_cases a <;> decide
  exact (Memref.read_access_unit_zero (Elt Ideal) main_v3 hz (fun a => by rw [congrFun hz a]; simp) (mlpValue V c)).symm

/-- The one point's block covers the output array. -/
theorem mlp_cover (i : S64x512.Idx) : ∃ t : Fin cfg1.N, (cfg1.win 6).flush t = true ∧ i ∈ ((cfg1.win 6).blk t).view.set :=
  ⟨t1_0, flush1_6 t1_0, by
    show i ∈ ((View.whole main_v3).slice (win1_6.rect t1_0)).set
    rw [View.set_slice_whole, Rect.mem_set_unit]
    intro a
    have h0 : (i 0 : Nat) < 64 := (i 0).isLt
    have h1 : (i 1 : Nat) < 512 := (i 1).isLt
    match a with
    | ⟨0, _⟩ =>
      show win1_6.index t1_0 0 * win1_6.size 0 ≤ (i 0 : Nat) ∧ (i 0 : Nat) < win1_6.index t1_0 0 * win1_6.size 0 + win1_6.xsize (grid1.coords t1_0) 0
      rw [show win1_6.index t1_0 0 * win1_6.size 0 = 0 from by decide +kernel, show win1_6.xsize (grid1.coords t1_0) 0 = 64 from by decide +kernel]; omega
    | ⟨1, _⟩ =>
      show win1_6.index t1_0 1 * win1_6.size 1 ≤ (i 1 : Nat) ∧ (i 1 : Nat) < win1_6.index t1_0 1 * win1_6.size 1 + win1_6.xsize (grid1.coords t1_0) 1
      rw [show win1_6.index t1_0 1 * win1_6.size 1 = 0 from by decide +kernel, show win1_6.xsize (grid1.coords t1_0) 1 = 512 from by decide +kernel]; omega⟩

/-- After the second launch its output array holds the body's value. -/
theorem mlp_final (c : Dev nD) : (dat1 V c).arrAt 6 cfg1.N = mlpValue V c :=
  (dat1 V c).arrAt_eq_of_cover 6 (mlpValue V c) (fun t _ => mlp_flushed_eq V c t) mlp_cover

end Launch

/-! ## The arrays the second launch finds, and the program's result -/

variable (m : (ℓ : Loc nD τ sig) → Buf (Elt Ideal) ℓ) (ρ : Dev nD → PrngReg)

/-- The pooled means: the reshapes before the second launch do not write them, the first launch left the reference's
    array of means of the first argument. -/
theorem found_pooled (c : Dev nD) :
    V2 m ρ c main_v0 = Cert.ReferenceIdeal.Read.val_main_v2 (F := Ideal) (m ((c : Thread nD τ).loc main_arg0)) := by
  have e1 : V2 m ρ c main_v0 = W1 m ρ c (Proc.devRef .tc main_v0) := by
    show StableHlo.after hostOps1 (W1 m ρ c) (Proc.devRef .tc main_v0) = _
    after_results
  rw [e1]
  exact (W1_arr m ρ c 1).trans (pooled (V0 m ρ) c)

/-- The weights are found as launched: neither the first launch nor the reshapes write them. -/
theorem found_arg1 (c : Dev nD) : V2 m ρ c main_arg1 = m ((c : Thread nD τ).loc main_arg1) := by
  have e1 : V2 m ρ c main_arg1 = W1 m ρ c (Proc.devRef .tc main_arg1) := by
    show StableHlo.after hostOps1 (W1 m ρ c) (Proc.devRef .tc main_arg1) = _
    after_results
  rw [e1]; exact W1_of_ne m ρ c main_arg1 (by decide)
theorem found_arg2 (c : Dev nD) : V2 m ρ c main_arg2 = m ((c : Thread nD τ).loc main_arg2) := by
  have e1 : V2 m ρ c main_arg2 = W1 m ρ c (Proc.devRef .tc main_arg2) := by
    show StableHlo.after hostOps1 (W1 m ρ c) (Proc.devRef .tc main_arg2) = _
    after_results
  rw [e1]; exact W1_of_ne m ρ c main_arg2 (by decide)
theorem found_arg5 (c : Dev nD) : V2 m ρ c main_arg5 = m ((c : Thread nD τ).loc main_arg5) := by
  have e1 : V2 m ρ c main_arg5 = W1 m ρ c (Proc.devRef .tc main_arg5) := by
    show StableHlo.after hostOps1 (W1 m ρ c) (Proc.devRef .tc main_arg5) = _
    after_results
  rw [e1]; exact W1_of_ne m ρ c main_arg5 (by decide)

/-- The two scalars are found reshaped to [1, 1]. -/
theorem found_w2 (c : Dev nD) :
    V2 m ρ c main_v1 = shapeCast S1x1 (m ((c : Thread nD τ).loc main_arg3)) Facts₀.shapeCasts_S_S1x1 := by
  show StableHlo.after hostOps1 (W1 m ρ c) (Proc.devRef .tc main_v1) = _
  after_results
  rw [W1_of_ne m ρ c main_arg3 (by decide)]
  rfl
theorem found_w3 (c : Dev nD) :
    V2 m ρ c main_v2 = shapeCast S1x1 (m ((c : Thread nD τ).loc main_arg4)) Facts₀.shapeCasts_S_S1x1 := by
  show StableHlo.after hostOps1 (W1 m ρ c) (Proc.devRef .tc main_v2) = _
  after_results
  rw [W1_of_ne m ρ c main_arg4 (by decide)]
  rfl

/-- THE RESULT: after the last reshape the result buffer holds the reference's result term of the six arguments. -/
theorem result_eq (c : Dev nD) :
    W4 m ρ c (Proc.devRef .tc main_v4)
      = Cert.ReferenceIdeal.Read.val_main_v30 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  have e4 : W4 m ρ c (Proc.devRef .tc main_v4)
      = shapeCast S64x512x1x1 (W3 m ρ c (Proc.devRef .tc main_v3)) Facts₀.shapeCasts_S64x512_S64x512x1x1 := by
    show StableHlo.after hostOps2 (W3 m ρ c) (Proc.devRef .tc main_v4) = _
    after_results
    rfl
  have e3 : W3 m ρ c (Proc.devRef .tc main_v3) = mlpValue (V2 m ρ) c := (W3_arr m ρ c 6).trans (mlp_final (V2 m ρ) c)
  rw [e4, e3]
  unfold mlpValue
  rw [found_pooled, found_arg1, found_arg2, found_arg5, found_w2, found_w3]
  exact Cert.Bridge.mlp_body_eq _ _ _ _ _ _

end Cert.KernelIdeal.Hand

end
-- ==== Proof.lean ====
/-
  The certificate of the channel-attention kernel against its reference: a global average pool over the 64 × 64 spatial
  positions, then a small chain — a product with W1, a softmax over each row scaled by w2, a mix  y ⊙ softmax + y · A2,
  a scale by w3 and a relu, a product with W4, the logistic function — with two unit axes appended to the result.

  The kernel runs as two launches. The pooling launch tiles the [64, 512, 64, 64] argument into 32 blocks and writes each
  block's means; since every block sums exactly the spatial positions of its own entries, the assembled [64, 512] array
  is the reference's array of means (PoolSum, PoolValue). The second launch holds everything in one block and computes,
  operation for operation, what the reference computes from the means on: a product with a transposed weight is the
  reference's contraction of two second axes, the kernel's row reductions fold the same elements as the reference's, a
  keepdims column broadcast reads the same row statistic, and the logistic function is the reference's 1 / (1 + e⁻ˣ)
  (Products, RowsAndScalars, MlpBridge, MlpValue). No law of the extended reals that needs finite operands is used, so
  the precondition is never opened.

  The three frames: the two kernel programs' are the generated frame certificates; the reference has no launch, and its
  frame is its run with the result forgotten. No operation was rewritten by the idealization, so nothing is owed for it.
-/
import proofs.«146215_j73581379715677_1_alg».proof.Defs
import proofs.«146215_j73581379715677_1_alg».proof.Proof.Gen.Kernel
import proofs.«146215_j73581379715677_1_alg».proof.Proof.Gen.Kernel.Skeleton
import proofs.«146215_j73581379715677_1_alg».proof.Proof.Gen.Kernel.Launch
import proofs.«146215_j73581379715677_1_alg».proof.Proof.Gen.Kernel.Points
import proofs.«146215_j73581379715677_1_alg».proof.Proof.Gen.Kernel.Frame
import proofs.«146215_j73581379715677_1_alg».proof.Proof.Gen.KernelIdeal
import proofs.«146215_j73581379715677_1_alg».proof.Proof.Gen.KernelIdeal.Skeleton
import proofs.«146215_j73581379715677_1_alg».proof.Proof.Gen.KernelIdeal.Launch
import proofs.«146215_j73581379715677_1_alg».proof.Proof.Gen.KernelIdeal.Points
import proofs.«146215_j73581379715677_1_alg».proof.Proof.Gen.KernelIdeal.Frame
import proofs.«146215_j73581379715677_1_alg».proof.Proof.Gen.ReferenceIdeal
import proofs.«146215_j73581379715677_1_alg».proof.Proof.Gen.Pre_finite_inputs
import proofs.«146215_j73581379715677_1_alg».proof.Proof.Gen.ReferenceIdeal.Run
import proofs.«146215_j73581379715677_1_alg».proof.Proof.Gen.ReferenceIdeal.Read
import proofs.«146215_j73581379715677_1_alg».proof.Proof.KernelRun
import proofs.«146215_j73581379715677_1_alg».proof.Proof.MlpValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's result term of the six arguments: the kernel by its run and the value of its
    two launches, the reference by its run; the arguments of the two memories agree. -/
theorem algebraic : Cert.algebraic_KernelIdeal_ReferenceIdeal := by
  intro m ρ m' ρ' _ hagree
  refine ⟨fun c => Cert.ReferenceIdeal.Read.val_main_v30 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v30_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
